-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S1x1200000 : Shape := ⟨2, ![1, 1200000]⟩
abbrev S1200000 : Shape := ⟨1, ![1200000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part2 {F : FTy → Type} [FloatOps F] (main_arg1 : IVec S2x1200000 32) (main_v33 : IVec S_ 1) : IVec S_ 1 :=
  let main_v34 : IVec S1x1200000 32 := (extractStridedSlice S1x1200000 ![1, 0] · slices_S2x1200000_S1x1200000_1_0) main_arg1
  let main_v35 : IVec S1200000 32 := shapeCast S1200000 main_v34 shapeCasts_S1x1200000_S1200000
  let main_c_12 : IVec S_ 32 := constantI S_ 32 0#32
  let main_v36 : IVec S1200000 32 := broadcastInDim S1200000 ![] bcast_S_S1200000 main_c_12
  let main_v37 : IVec S1200000 1 := cmpi .sge main_v35 main_v36
  let main_c_13 : IVec S_ 1 := constantI S_ 1 1#1
  let main_v38 : IVec S_ 1 := (fun x v => Host.reduce IntOp.andi x v reducesTo_S1200000_S_d0 h_S_) main_v37 main_c_13
  let main_v39 : IVec S_ 1 := andi main_v33 main_v38
  main_v39

def fn_part1 {F : FTy → Type} [FloatOps F] (main_arg1 : IVec S2x1200000 32) (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1200000 32) (main_arg2 : IVec S50000 32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_v13 main_v16
-- ==== Kernel.lean ====
abbrev S100000x128 : Shape := ⟨2, ![100000, 128]⟩
abbrev S2x1200000 : Shape := ⟨2, ![2, 1200000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x1 : Shape := ⟨2, ![1, 1]⟩
abbrev S100000x1 : Shape := ⟨2, ![100000, 1]⟩
abbrev S5000x64 : Shape := ⟨2, ![5000, 64]⟩
abbrev S5000x1 : Shape := ⟨2, ![5000, 1]⟩
abbrev S100000 : Shape := ⟨1, ![100000]⟩
abbrev S50000x1 : Shape := ⟨2, ![50000, 1]⟩

abbrev nBuf : Space → Nat
  | .hbm => 49
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x64, .f32⟩
  | .hbm, ⟨10, _⟩ => ⟨S100000x64, .bf16⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .bf16⟩
  | .hbm, ⟨24, _⟩ => ⟨S1200000x64, .f32⟩
  | .hbm, ⟨25, _⟩ => ⟨S100000x64, .f32⟩
  | .hbm, ⟨26, _⟩ => ⟨S_, .i32⟩
  | .hbm, ⟨27, _⟩ => ⟨S1200000, .i32⟩
  | .hbm, ⟨28, _⟩ => ⟨S1200000, .i1⟩
  | .hbm, ⟨29, _⟩ => ⟨S_, .i32⟩
  | .hbm, ⟨30, _⟩ => ⟨S1200000, .i32⟩
  | .hbm, ⟨31, _⟩ => ⟨S1200000, .i32⟩
  | .hbm, ⟨32, _⟩ => ⟨S1200000, .i32⟩
  | .hbm, ⟨33, _⟩ => ⟨S1200000x1, .i32⟩
  | .hbm, ⟨34, _⟩ => ⟨S100000x64, .f32⟩
  | .hbm, ⟨35, _⟩ => ⟨S100000x64, .bf16⟩
  | .hbm, ⟨36, _⟩ => ⟨S1x64, .f32⟩
  | .hbm, ⟨37, _⟩ => ⟨S1x1, .f32⟩
  | .hbm, ⟨38, _⟩ => ⟨S100000x1, .f32⟩
  | .hbm, ⟨39, _⟩ => ⟨S100000, .f32⟩
  | .hbm, ⟨40, _⟩ => ⟨S_, .i32⟩
  | .hbm, ⟨41, _⟩ => ⟨S50000, .i32⟩
  | .hbm, ⟨42, _⟩ => ⟨S50000, .i1⟩
  | .hbm, ⟨43, _⟩ => ⟨S_, .i32⟩
  | .hbm, ⟨44, _⟩ => ⟨S50000, .i32⟩
  | .hbm, ⟨45, _⟩ => ⟨S50000, .i32⟩
  | .hbm, ⟨46, _⟩ => ⟨S50000, .i32⟩
  | .hbm, ⟨47, _⟩ => ⟨S50000x1, .i32⟩
  | .hbm, ⟨48, _⟩ => ⟨S50000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .bf16⟩
  | .local _ .vmem, ⟨5, _⟩ => ⟨S10000x64, .bf16⟩
  | .local _ .vmem, ⟨6, _⟩ => ⟨S5000x64, .bf16⟩
  | .local _ .vmem, ⟨7, _⟩ => ⟨S5000x64, .bf16⟩
  | .local _ .vmem, ⟨8, _⟩ => ⟨S64x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S5000x1, .f32⟩
  | .local _ .vmem, ⟨13, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  bcast_S_S50000 : S_.BroadcastsInDim S50000 (![] : Fin 0 → Fin S50000.rank)
  bcast_S50000_S50000x1_0 : S50000.BroadcastsInDim S50000x1 (![0] : Fin 1 → Fin S50000x1.rank)
  dot_S10000x128_S128x64_S10000x64_1_0_0_1_n_n_wf : DotDims.WF S10000x128 S128x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  gather_S100000_S50000x1_S50000_n_0_n_n_0_1_1_wf : GatherDims.WF S100000 S50000x1 S50000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000_S50000x1_S50000_n_0_n_n_0_1_1 : GatherDims S100000 S50000x1 S50000 where
  offsetDims := []
  collapsedSliceDims := [0]
  operandBatchingDims := []
  startIndicesBatchingDims := []
  startIndexMap := [0]
  indexVectorDim := 1
  sliceSizes := ![1]
  wf := gather_S100000_S50000x1_S50000_n_0_n_n_0_1_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S1x1200000 : Shape := ⟨2, ![1, 1200000]⟩
abbrev S1200000 : Shape := ⟨1, ![1200000]⟩
abbrev S1200000x1 : Shape := ⟨2, ![1200000, 1]⟩
abbrev S1200000x64 : Shape := ⟨2, ![1200000, 64]⟩
abbrev S50000x1 : Shape := ⟨2, ![50000, 1]⟩
abbrev S50000x64 : Shape := ⟨2, ![50000, 64]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000x64, .f32⟩
  | .hbm, ⟨10, _⟩ => ⟨S1x64, .f32⟩
  | .hbm, ⟨11, _⟩ => ⟨S100000x64, .f32⟩
  | .hbm, ⟨12, _⟩ => ⟨S100000x64, .f32⟩
  | .hbm, ⟨13, _⟩ => ⟨S_, .f32⟩
  | .hbm, ⟨14, _⟩ => ⟨S100000x64, .f32⟩
  | .hbm, ⟨15, _⟩ => ⟨S100000x64, .f32⟩
  | .hbm, ⟨16, _⟩ => ⟨S1x1200000, .i32⟩
  | .hbm, ⟨17, _⟩ => ⟨S1200000, .i32⟩
  | .hbm, ⟨18, _⟩ => ⟨S1x1200000, .i32⟩
  | .hbm, ⟨19, _⟩ => ⟨S1200000, .i32⟩
  | .hbm, ⟨20, _⟩ => ⟨S_, .i32⟩
  | .hbm, ⟨21, _⟩ => ⟨S1200000, .i32⟩
  | .hbm, ⟨22, _⟩ => ⟨S1200000, .i1⟩
  | .hbm, ⟨23, _⟩ => ⟨S_, .i32⟩
  | .hbm, ⟨24, _⟩ => ⟨S1200000, .i32⟩
  | .hbm, ⟨25, _⟩ => ⟨S1200000, .i32⟩
  | .hbm, ⟨26, _⟩ => ⟨S1200000, .i32⟩
  | .hbm, ⟨27, _⟩ => ⟨S1200000x1, .i32⟩
  | .hbm, ⟨28, _⟩ => ⟨S1200000x64, .f32⟩
  | .hbm, ⟨29, _⟩ => ⟨S_, .f32⟩
  | .hbm, ⟨30, _⟩ => ⟨S100000x64, .f32⟩
  | .hbm, ⟨31, _⟩ => ⟨S1200000x1, .i32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S50000, .i32⟩
  | .hbm, ⟨43, _⟩ => ⟨S50000, .i1⟩
  | .hbm, ⟨44, _⟩ => ⟨S_, .i32⟩
  | .hbm, ⟨45, _⟩ => ⟨S50000, .i32⟩
  | .hbm, ⟨46, _⟩ => ⟨S50000, .i32⟩
  | .hbm, ⟨47, _⟩ => ⟨S50000, .i32⟩
  | .hbm, ⟨48, _⟩ => ⟨S50000x1, .i32⟩
  | .hbm, ⟨49, _⟩ => ⟨S50000x64, .f32⟩
  | .hbm, ⟨50, _⟩ => ⟨S50000x1, .f32⟩
  | .hbm, ⟨51, _⟩ => ⟨S1x1, .f32⟩
  | .hbm, ⟨52, _⟩ => ⟨S50000x1, .f32⟩
  | .hbm, ⟨53, _⟩ => ⟨S50000x1, .f32⟩
  | .hbm, ⟨54, _⟩ => ⟨S50000, .f32⟩
  | .hbm, ⟨55, _⟩ => ⟨S50000, .f32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S100000x128_S128x64_S100000x64_1_0_0_1_n_n_wf : DotDims.WF S100000x128 S128x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  gather_S100000x64_S50000x1_S50000x64_1_0_n_n_0_1_164_wf : GatherDims.WF S100000x64 S50000x1 S50000x64 [1] [0] [] [0] [] 1 ![1, 64]
  dot_S50000x64_S64x1_S50000x1_1_0_0_1_n_n_wf : DotDims.WF S50000x64 S64x1 S50000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KRun.lean ====
/-
  The idealized kernel program's run with its RESULT named.

  The program is five segments: host operations, the first kernel region, host operations, the second kernel region,
  host operations. Each segment takes the TensorCore's buffer contents at one boundary to the contents at the next;
  the generated frame module folds these into the contents W5 at the return. Every weakly fair execution terminates
  without a fault, and the final memory agrees with W5 on every unscoped buffer — in particular on the result buffer
  and on the nine argument buffers, which the fold leaves as launched.
-/
import proofs.«127732_j37460704755814_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, in a memory that agrees with the folded
    contents W5 on every unscoped buffer; any property of such memories follows. -/
theorem run_W5 {Q : PUnit × MemSt nD τ sig (Elt F) → Prop}
    (hQ : ∀ s : MemSt nD τ sig (Elt F),
      (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- The run with the result buffer at the folded contents and the nine arguments as launched. -/
theorem run_result : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_W5 m ρ (fun s h c =>
      ⟨h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KRun

end
-- ==== Proof.KHost.lean ====
/-
  The buffer contents at the boundaries of the kernel program's five segments, read where the value proof needs them.

  The program: (host) the first bias as a row; (region 0) the first dense layer; (host) gather the node embeddings
  along the edges' sources, add them into the embeddings at the edges' destinations, reshape two biases; (region 1) the
  second dense layer and the score; (host) the score column as a vector, gathered at the selection indices.
  An argument buffer is written by nothing, so it holds its launch contents at every boundary; a region's output array
  is what its write-backs leave; a host operation's result is its function of the contents before it.
-/
import proofs.«127732_j37460704755814_2_alg».proof.Proof.Gen.KernelIdeal.Frame
import Idealize.ShloMosaic.Lib.StableHlo.Run
import Idealize.ShloMosaic.Lib.ValueIdx

set_option maxRecDepth 16384

noncomputable section

namespace Cert.KHost

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem

/-! ## The index arrays, as the program spells them -/

/-- Row r of the edge list, as a vector. -/
abbrev edgeRow0 (x1 : IVec S2x1200000 32) : IVec S1200000 32 :=
  shapeCast S1200000 (extractStridedSlice S1x1200000 ![0, 0] x1 slices_S2x1200000_S1x1200000_0_0) shapeCasts_S1x1200000_S1200000
abbrev edgeRow1 (x1 : IVec S2x1200000 32) : IVec S1200000 32 :=
  shapeCast S1200000 (extractStridedSlice S1x1200000 ![1, 0] x1 slices_S2x1200000_S1x1200000_1_0) shapeCasts_S1x1200000_S1200000

/-- An index vector with its negative entries shifted up by the table's length, as a column of start indices. -/
abbrev wrapCol (v : IVec S1200000 32) : IVec S1200000x1 32 :=
  broadcastInDim S1200000x1 ![0] bcast_S1200000_S1200000x1_0
    (select (cmpi .slt v (broadcastInDim S1200000 ![] bcast_S_S1200000 (constantI S_ 32 0#32)))
      (addi v (broadcastInDim S1200000 ![] bcast_S_S1200000 (constantI S_ 32 100000#32))) v)

/-- The gather's start indices (sources) and the scatter's indices (destinations), both wrapped. -/
abbrev srcIdx (x1 : IVec S2x1200000 32) : IVec S1200000x1 32 := wrapCol (edgeRow0 x1)
abbrev dstIdx (x1 : IVec S2x1200000 32) : IVec S1200000x1 32 := wrapCol (edgeRow1 x1)

/-- The selection indices, wrapped, as a column of start indices. -/
abbrev pmIdx (x2 : IVec S50000 32) : IVec S50000x1 32 :=
  broadcastInDim S50000x1 ![0] bcast_S50000_S50000x1_0
    (select (cmpi .slt x2 (broadcastInDim S50000 ![] bcast_S_S50000 (constantI S_ 32 0#32)))
      (addi x2 (broadcastInDim S50000 ![] bcast_S_S50000 (constantI S_ 32 100000#32))) x2)

variable {F : FTy → Type} [FloatOps F]
variable (m : (ℓ : Loc nD τ sig) → Buf (Elt F) ℓ) (ρ : Dev nD → PrngReg)

/-! ## Buffers nothing has written yet -/

theorem W1_arg0 (c : Dev nD) : W1 m ρ c (Proc.devRef .tc main_arg0) = m ((c : Thread nD τ).loc main_arg0) :=
  StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg3 (c : Dev nD) : W1 m ρ c (Proc.devRef .tc main_arg3) = m ((c : Thread nD τ).loc main_arg3) :=
  StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg1 (c : Dev nD) : W1 m ρ c (Proc.devRef .tc main_arg1) = m ((c : Thread nD τ).loc main_arg1) :=
  StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg2 (c : Dev nD) : W1 m ρ c (Proc.devRef .tc main_arg2) = m ((c : Thread nD τ).loc main_arg2) :=
  StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg5 (c : Dev nD) : W1 m ρ c (Proc.devRef .tc main_arg5) = m ((c : Thread nD τ).loc main_arg5) :=
  StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg6 (c : Dev nD) : W1 m ρ c (Proc.devRef .tc main_arg6) = m ((c : Thread nD τ).loc main_arg6) :=
  StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg7 (c : Dev nD) : W1 m ρ c (Proc.devRef .tc main_arg7) = m ((c : Thread nD τ).loc main_arg7) :=
  StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg8 (c : Dev nD) : W1 m ρ c (Proc.devRef .tc main_arg8) = m ((c : Thread nD τ).loc main_arg8) :=
  StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

theorem W3_arg2 (c : Dev nD) : W3 m ρ c (Proc.devRef .tc main_arg2) = m ((c : Thread nD τ).loc main_arg2) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg2) = W2 m ρ c (Proc.devRef .tc main_arg2)).trans (W2_arg2 m ρ c)
theorem W3_arg5 (c : Dev nD) : W3 m ρ c (Proc.devRef .tc main_arg5) = m ((c : Thread nD τ).loc main_arg5) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg5) = W2 m ρ c (Proc.devRef .tc main_arg5)).trans (W2_arg5 m ρ c)
theorem W3_arg7 (c : Dev nD) : W3 m ρ c (Proc.devRef .tc main_arg7) = m ((c : Thread nD τ).loc main_arg7) :=
  (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg7) = W2 m ρ c (Proc.devRef .tc main_arg7)).trans (W2_arg7 m ρ c)

theorem W4_arg2 (c : Dev nD) : W4 m ρ c (Proc.devRef .tc main_arg2) = m ((c : Thread nD τ).loc main_arg2) :=
  (W4_of_ne m ρ c main_arg2 (by decide)).trans (W3_arg2 m ρ c)

/-! ## The host operations' results -/

/-- Before region 0: the first bias as a row. -/
theorem W1_v0 (c : Dev nD) : W1 m ρ c (Proc.devRef .tc main_v0)
    = shapeCast S1x64 (m ((c : Thread nD τ).loc main_arg4)) shapeCasts_S64_S1x64 := by
  show StableHlo.after hostOps0 (W0 m ρ c) (Proc.devRef .tc main_v0) = _
  after_results
  rfl

set_option maxHeartbeats 1000000 in
/-- Before region 1: the combined embeddings — the region-0 output array with, added at each edge's destination
    row, the row gathered at the edge's source. -/
theorem W3_v22 (c : Dev nD) : W3 m ρ c (Proc.devRef .tc main_v22)
    = truncf .bf16 (Host.scatterAdd scatter_S100000x64_S1200000x1_S1200000x64_1_0_0_1
        (extf .f32 (W2 m ρ c (Proc.devRef .tc main_v1)) bitsLt_bf16_f32)
        (dstIdx (m ((c : Thread nD τ).loc main_arg1)))
        (extf .f32 (Host.gather gather_S100000x64_S1200000x1_S1200000x64_1_0_n_n_0_1_164 (W2 m ρ c (Proc.devRef .tc main_v1))
          (srcIdx (m ((c : Thread nD τ).loc main_arg1)))) bitsLt_bf16_f32)) bitsLt_bf16_f32 := by
  show StableHlo.after hostOps1 (W2 m ρ c) (Proc.devRef .tc main_v22) = _
  after_results_simp
  rw [W2_arg1 m ρ c]
  rfl

set_option maxHeartbeats 1000000 in
theorem W3_v23 (c : Dev nD) : W3 m ρ c (Proc.devRef .tc main_v23)
    = shapeCast S1x64 (m ((c : Thread nD τ).loc main_arg6)) shapeCasts_S64_S1x64 := by
  show StableHlo.after hostOps1 (W2 m ρ c) (Proc.devRef .tc main_v23) = _
  after_results_simp
  rw [W2_arg6 m ρ c]
  rfl

set_option maxHeartbeats 1000000 in
theorem W3_v24 (c : Dev nD) : W3 m ρ c (Proc.devRef .tc main_v24)
    = shapeCast S1x1 (m ((c : Thread nD τ).loc main_arg8)) shapeCasts_S1_S1x1 := by
  show StableHlo.after hostOps1 (W2 m ρ c) (Proc.devRef .tc main_v24) = _
  after_results_simp
  rw [W2_arg8 m ρ c]
  rfl

/-- After region 1: the result is the score column, as a vector, gathered at the selection indices. -/
theorem W5_v33 (c : Dev nD) : W5 m ρ c (Proc.devRef .tc main_v33)
    = Host.gather gather_S100000_S50000x1_S50000_n_0_n_n_0_1_1
        (shapeCast S100000 (W4 m ρ c (Proc.devRef .tc main_v25)) shapeCasts_S100000x1_S100000)
        (pmIdx (m ((c : Thread nD τ).loc main_arg2))) := by
  show StableHlo.after hostOps2 (W4 m ρ c) (Proc.devRef .tc main_v33) = _
  after_results
  rw [W4_arg2 m ρ c]
  rfl

/-! ## The regions' arrays -/

theorem W2_v1 (c : Dev nD) : W2 m ρ c (Proc.devRef .tc main_v1) = (dat0 (V1 m ρ) c).arrAt 3 cfg0.N := W2_arr m ρ c 3
theorem W4_v25 (c : Dev nD) : W4 m ρ c (Proc.devRef .tc main_v25) = (dat1 (V3 m ρ) c).arrAt 5 cfg1.N := W4_arr m ρ c 5

end Cert.KHost

end
-- ==== Proof.Spec.lean ====
/-
  The function both programs compute, stated once over the argument arrays as extended reals.

  A dense layer is relu(X·W + b): entry (n, h) is max(Σ_k X[n,k]·W[k,h] + b[h], 0).
  The message step adds to every node's embedding the embeddings gathered along the edges that end at that node:
  entry i is E[i] + Σ over the update positions j whose scatter index lands on i of E[gather index of j].
  The score of node n is the logistic function of Σ_h H[n,h]·W[h,0] + b[0].
  The result at position p is the score of the node the p-th selection index names (read signed, clamped into the table).
-/
import Idealize.ShloMosaic.Lib.ValueIdx
import Idealize.ShloMosaic.PureOps.Ideal.Laws

noncomputable section

open scoped BigOperators

namespace Cert.Spec

open Idealize.ShloMosaic Idealize.ShloMosaic.ValueIdx

abbrev SX : Shape := ⟨2, ![100000, 128]⟩
abbrev SE : Shape := ⟨2, ![100000, 64]⟩
abbrev SEdgeIdx : Shape := ⟨2, ![1200000, 1]⟩
abbrev SEdgeVal : Shape := ⟨2, ![1200000, 64]⟩
abbrev SPostIdx : Shape := ⟨2, ![50000, 1]⟩
abbrev SPost : Shape := ⟨1, ![50000]⟩

/-- relu(X·W + b): entry (n, h) is max(Σ_k X[n,k]·W[k,h] + b[h], 0). -/
def dense {M K H : Nat} (X : (⟨2, ![M, K]⟩ : Shape).Idx → EReal) (W : (⟨2, ![K, H]⟩ : Shape).Idx → EReal)
    (b : (⟨1, ![H]⟩ : Shape).Idx → EReal) : (⟨2, ![M, H]⟩ : Shape).Idx → EReal :=
  fun i => max ((∑ k : Fin K, X (ix2 (i 0) k) * W (ix2 k (i 1))) + b (ix1 (i 1))) 0

theorem dense_ix2 {M K H : Nat} (X : (⟨2, ![M, K]⟩ : Shape).Idx → EReal) (W : (⟨2, ![K, H]⟩ : Shape).Idx → EReal)
    (b : (⟨1, ![H]⟩ : Shape).Idx → EReal) (n : Fin M) (h : Fin H) :
    dense X W b (ix2 n h) = max ((∑ k : Fin K, X (ix2 n k) * W (ix2 k h)) + b (ix1 h)) 0 := rfl

/-- Every node's embedding plus the embeddings gathered along the edges that the scatter index sends to it. -/
def mid (g : GatherDims SE SEdgeIdx SEdgeVal) (d : ScatterDims SE SEdgeIdx SEdgeVal) (E : SE.Idx → EReal)
    (src dst : IVec SEdgeIdx 32) : SE.Idx → EReal :=
  fun i => E i + ∑ j ∈ Finset.univ.filter (fun j => d.resultIdx? j dst = some i), E (g.operandIdx j src)

/-- The score of node n: the logistic function of Σ_h H[n,h]·W[h,0] + b[0]. -/
def score {M : Nat} (Hh : (⟨2, ![M, 64]⟩ : Shape).Idx → EReal) (Wo : (⟨2, ![64, 1]⟩ : Shape).Idx → EReal)
    (bo : (⟨1, ![1]⟩ : Shape).Idx → EReal) (n : Fin M) : EReal :=
  Ideal.logistic ((∑ k : Fin 64, Hh (ix2 n k) * Wo (ix2 k 0)) + bo (ix1 0))

/-- The node a selection index names: the word read signed and clamped into [0, 99999]. -/
def rowOf {P : Nat} (pm : IVec (⟨2, ![P, 1]⟩ : Shape) 32) (p : Fin P) : Fin 100000 :=
  ⟨min (pm (ix2 p 0)).toInt.toNat 99999, by omega⟩

/-- The whole computation: position p holds the score of node rowOf pm p, over the second dense layer of the
    message step of the first dense layer. -/
def G (g : GatherDims SE SEdgeIdx SEdgeVal) (d : ScatterDims SE SEdgeIdx SEdgeVal)
    (X : SX.Idx → EReal) (We : (⟨2, ![128, 64]⟩ : Shape).Idx → EReal) (be : (⟨1, ![64]⟩ : Shape).Idx → EReal)
    (Wc : (⟨2, ![64, 64]⟩ : Shape).Idx → EReal) (bc : (⟨1, ![64]⟩ : Shape).Idx → EReal)
    (Wo : (⟨2, ![64, 1]⟩ : Shape).Idx → EReal) (bo : (⟨1, ![1]⟩ : Shape).Idx → EReal)
    (src dst : IVec SEdgeIdx 32) (pm : IVec SPostIdx 32) : SPost.Idx → EReal :=
  fun p => score (dense (mid g d (dense X We be) src dst) Wc bc) Wo bo (rowOf pm (p 0))

end Cert.Spec

end
-- ==== Proof.GatherIdx.lean ====
/-
  The last gather of the kernel program, read at an index.

  The score vector has one axis; the selection indices are a column [50000, 1]; the gather collapses the operand's one
  axis, so result position p reads the operand at the start index the column holds at (p, 0), read as a signed word and
  clamped into the table: there is no batching coordinate and no offset coordinate.
-/
import proofs.«127732_j37460704755814_2_alg».proof.Proof.Gen.KernelIdeal
import proofs.«127732_j37460704755814_2_alg».proof.Proof.Spec

set_option maxRecDepth 16384

noncomputable section

namespace Cert.GatherIdx

open Cert.KernelIdeal Cert.KernelIdeal.Gen
open Idealize.ShloMosaic Idealize.ShloMosaic.ValueIdx

/-- Result position p reads the operand at the clamped start index of (p, 0). -/
theorem operandIdx_score (idx : IVec S50000x1 32) (p : Fin 50000) :
    gather_S100000_S50000x1_S50000_n_0_n_n_0_1_1.operandIdx (ix1 p) idx = ix1 (Cert.Spec.rowOf idx p) := by
  funext a
  obtain rfl : a = 0 := Subsingleton.elim _ _
  refine Fin.ext ?_
  show gather_S100000_S50000x1_S50000_n_0_n_n_0_1_1.start (ix1 p) idx 0
      + gather_S100000_S50000x1_S50000_n_0_n_n_0_1_1.batchCoord (ix1 p) 0
      + gather_S100000_S50000x1_S50000_n_0_n_n_0_1_1.offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S50000x1_S50000_n_0_n_n_0_1_1.startIndexMap from List.mem_singleton.mpr rfl)]
  have hsi : gather_S100000_S50000x1_S50000_n_0_n_n_0_1_1.siIdx (ix1 p)
      ⟨List.idxOf (0 : Fin 1) gather_S100000_S50000x1_S50000_n_0_n_n_0_1_1.startIndexMap,
        List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end Cert.GatherIdx

end
-- ==== Proof.LibSqueezeColumn.lean ====
/-
  A column read as a vector: an \`[a, 1]\` array cast to \`[a]\` reads, at \`i\`, the column at \`(i, 0)\`. (The row form,
  \`[1, a] → [a]\`, is in the library's layout file; this is its transpose, proved the same way.) General: nothing here
  mentions a program.
-/
import Idealize.ShloMosaic.Lib.Pipeline.Value
import Idealize.ShloMosaic.Lib.ValueIdx

namespace Cert.LibSqueezeColumn

open Idealize.ShloMosaic Idealize.ShloMosaic.ValueIdx

variable {α : Type}

/-- An \`[a, 1]\` array cast to \`[a]\` reads, at \`i\`, the operand at \`(i, 0)\`: the row-major positions agree,
    \`i · 1 + 0 = i\`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibSqueezeColumn
-- ==== Proof.KValue.lean ====
/-
  The kernel program's result as the specified function of the argument arrays.

  Region 0 leaves relu(X·W_enc + b_enc); the host operations between the regions gather its rows along the edges'
  sources and add them in at the edges' destinations (the format changes between are the identity on extended reals);
  region 1 leaves, for every node, the logistic score of relu(C·W_conv + b_conv)·W_out + b_out as a column; the last
  host operations read the column as a vector and gather it at the selection indices, each read signed and clamped.
  The biases reach the regions as rows [1, n], which read back the bias vectors.
-/
import proofs.«127732_j37460704755814_2_alg».proof.Proof.KHost
import proofs.«127732_j37460704755814_2_alg».proof.Proof.GatherIdx
import proofs.«127732_j37460704755814_2_alg».proof.Proof.LibSqueezeColumn
import proofs.«127732_j37460704755814_2_alg».proof.Proof.Spec
import Idealize.ShloMosaic.Lib.ValueLayout

set_option maxRecDepth 16384

noncomputable section

namespace Cert.KValue

open Cert.KernelIdeal Cert.KernelIdeal.Gen Cert.KHost
open Idealize.ShloMosaic Idealize.ShloMosaic.TcCoe Idealize.ShloMosaic.ValueIdx
open Idealize.SL.Sem

/-- At the extended reals the format changes are the identity, and the accumulating scatter of the gathered rows
    into the embeddings is the message step. -/
theorem mid_eq (E : FVec Ideal S100000x64 .bf16) (src dst : IVec S1200000x1 32) :
    truncf .bf16 (Host.scatterAdd scatter_S100000x64_S1200000x1_S1200000x64_1_0_0_1
        (extf .f32 E bitsLt_bf16_f32) dst
        (extf .f32 (Host.gather gather_S100000x64_S1200000x1_S1200000x64_1_0_n_n_0_1_164 E src) bitsLt_bf16_f32)) bitsLt_bf16_f32
      = Cert.Spec.mid gather_S100000x64_S1200000x1_S1200000x64_1_0_n_n_0_1_164 scatter_S100000x64_S1200000x1_S1200000x64_1_0_0_1 E src dst := rfl

/-- A bias vector laid out as a row, read back at its column. -/
theorem bias_row {a : ℕ} (x : (⟨1, ![a]⟩ : Shape).Idx → EReal) (h : (⟨1, ![a]⟩ : Shape).ShapeCasts ⟨2, ![1, a]⟩) :
    (fun i : (⟨1, ![a]⟩ : Shape).Idx => shapeCast ⟨2, ![1, a]⟩ x h (ix2 (0 : Fin 1) (i 0))) = x := by
  funext i
  obtain ⟨q, rfl⟩ : ∃ q : Fin a, i = ix1 q := ⟨i 0, eq_ix1 i⟩
  exact shapeCast_a_1a_apply x h 0 q

variable (m : (ℓ : Loc nD τ sig) → Buf (Elt Ideal) ℓ) (ρ : Dev nD → PrngReg)

/-- The kernel program's result, from the two regions' arrays as whole-array functions of their inputs. -/
theorem kernel_result (c : Dev nD)
    (henc : (dat0 (F := Ideal) (V1 m ρ) c).arrAt 3 cfg0.N
      = Cert.Spec.dense (V1 m ρ c (Pipeline.arrRef spec0 0)) (V1 m ρ c (Pipeline.arrRef spec0 1))
          (fun i => V1 m ρ c (Pipeline.arrRef spec0 2) (ix2 0 (i 0))))
    (hout : (dat1 (F := Ideal) (V3 m ρ) c).arrAt 5 cfg1.N
      = fun i => Cert.Spec.score (Cert.Spec.dense (V3 m ρ c (Pipeline.arrRef spec1 0)) (V3 m ρ c (Pipeline.arrRef spec1 1))
            (fun j => V3 m ρ c (Pipeline.arrRef spec1 2) (ix2 0 (j 0))))
          (V3 m ρ c (Pipeline.arrRef spec1 3)) (fun _ => V3 m ρ c (Pipeline.arrRef spec1 4) (ix2 0 0)) (i 0)) :
    W5 m ρ c (Proc.devRef .tc main_v33)
      = Cert.Spec.G gather_S100000x64_S1200000x1_S1200000x64_1_0_n_n_0_1_164 scatter_S100000x64_S1200000x1_S1200000x64_1_0_0_1
          (m ((c : Thread nD τ).loc main_arg0)) (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (srcIdx (m ((c : Thread nD τ).loc main_arg1))) (dstIdx (m ((c : Thread nD τ).loc main_arg1)))
          (pmIdx (m ((c : Thread nD τ).loc main_arg2))) := by
  -- region 0's inputs
  have e0 : V1 m ρ c (Pipeline.arrRef spec0 0) = m ((c : Thread nD τ).loc main_arg0) := W1_arg0 m ρ c
  have e1 : V1 m ρ c (Pipeline.arrRef spec0 1) = m ((c : Thread nD τ).loc main_arg3) := W1_arg3 m ρ c
  have e2 : (fun i : S64.Idx => V1 m ρ c (Pipeline.arrRef spec0 2) (ix2 (0 : Fin 1) (i 0))) = m ((c : Thread nD τ).loc main_arg4) := by
    have h : V1 m ρ c (Pipeline.arrRef spec0 2) = shapeCast S1x64 (m ((c : Thread nD τ).loc main_arg4)) shapeCasts_S64_S1x64 := W1_v0 m ρ c
    rw [h]; exact bias_row _ _
  -- region 1's inputs
  have f0 : V3 m ρ c (Pipeline.arrRef spec1 0)
      = Cert.Spec.mid gather_S100000x64_S1200000x1_S1200000x64_1_0_n_n_0_1_164 scatter_S100000x64_S1200000x1_S1200000x64_1_0_0_1
          (Cert.Spec.dense (m ((c : Thread nD τ).loc main_arg0)) (m ((c : Thread nD τ).loc main_arg3)) (m ((c : Thread nD τ).loc main_arg4)))
          (srcIdx (m ((c : Thread nD τ).loc main_arg1))) (dstIdx (m ((c : Thread nD τ).loc main_arg1))) := by
    refine (W3_v22 m ρ c).trans ?_
    rw [W2_v1, henc, e0, e1, e2]
    exact mid_eq _ _ _
  have f1 : V3 m ρ c (Pipeline.arrRef spec1 1) = m ((c : Thread nD τ).loc main_arg5) := W3_arg5 m ρ c
  have f2 : (fun j : S64.Idx => V3 m ρ c (Pipeline.arrRef spec1 2) (ix2 (0 : Fin 1) (j 0))) = m ((c : Thread nD τ).loc main_arg6) := by
    have h : V3 m ρ c (Pipeline.arrRef spec1 2) = shapeCast S1x64 (m ((c : Thread nD τ).loc main_arg6)) shapeCasts_S64_S1x64 := W3_v23 m ρ c
    rw [h]; exact bias_row _ _
  have f3 : V3 m ρ c (Pipeline.arrRef spec1 3) = m ((c : Thread nD τ).loc main_arg7) := W3_arg7 m ρ c
  have f4 : (fun _ : S1.Idx => V3 m ρ c (Pipeline.arrRef spec1 4) (ix2 (0 : Fin 1) (0 : Fin 1))) = m ((c : Thread nD τ).loc main_arg8) := by
    have h : V3 m ρ c (Pipeline.arrRef spec1 4) = shapeCast S1x1 (m ((c : Thread nD τ).loc main_arg8)) shapeCasts_S1_S1x1 := W3_v24 m ρ c
    rw [h]
    funext i
    obtain ⟨q, rfl⟩ : ∃ q : Fin 1, i = ix1 q := ⟨i 0, eq_ix1 i⟩
    obtain rfl : q = 0 := Subsingleton.elim _ _
    exact shapeCast_a_1a_apply _ _ 0 0
  -- the last gather
  rw [W5_v33]
  funext p
  obtain ⟨p, rfl⟩ : ∃ q : Fin 50000, p = ix1 q := ⟨p 0, eq_ix1 p⟩
  show shapeCast S100000 (W4 m ρ c (Proc.devRef .tc main_v25)) shapeCasts_S100000x1_S100000
      (gather_S100000_S50000x1_S50000_n_0_n_n_0_1_1.operandIdx (ix1 p) (pmIdx (m ((c : Thread nD τ).loc main_arg2)))) = _
  rw [Cert.GatherIdx.operandIdx_score, Cert.LibSqueezeColumn.shapeCast_a1_a_apply, W4_v25, hout]
  show Cert.Spec.score _ _ _ (Cert.Spec.rowOf (pmIdx (m ((c : Thread nD τ).loc main_arg2))) p) = Cert.Spec.score _ _ _ (Cert.Spec.rowOf (pmIdx (m ((c : Thread nD τ).loc main_arg2))) p)
  rw [f0, f1, f2, f3, f4]

end Cert.KValue
end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.EncArray.lean ====
/-
  The encoder region's output array as one function of its input arrays.

  The region sweeps ten grid points; point t reads rows 10000 t … 10000 t + 9999 of X [100000, 128], the whole of
  W [128, 64] and the whole bias row [1, 64], and writes back rows 10000 t … 10000 t + 9999 of the output [100000, 64].
  At (p, q) of a block the body leaves max(Σ_k X[p,k]·W[k,q] + b[0,q], 0); the ten written blocks tile the output, so
  the output array ends as entry (n, h) = max(Σ_k X[n,k]·W[k,h] + b[0,h], 0): the dense layer of the three input arrays.
-/
import proofs.«127732_j37460704755814_2_alg».proof.Proof.Gen.KernelIdeal.Frame
import proofs.«127732_j37460704755814_2_alg».proof.Proof.Spec
import proofs.«127732_j37460704755814_2_alg».proof.Proof.LibPlainMatmul
import Idealize.ShloMosaic.Lib.Pipeline.Value
import Idealize.ShloMosaic.Lib.ValueLayout

noncomputable section

open scoped BigOperators

namespace Cert.EncArray

open Cert.KernelIdeal Cert.KernelIdeal.Gen Idealize.ShloMosaic Idealize.ShloMosaic.TcCoe Idealize.ShloMosaic.ValueIdx
open Idealize.ShloMosaic.Pipeline (Dat)

theorem hz : (![0, 0] : Fin 2 → Nat) = fun _ => 0 := funext fun a => by fin_cases a <;> rfl

/-! ## The body's payload at an index -/

/-- The dimension numbers of the body's matrix product: [10000, 128] · [128, 64] → [10000, 64]. -/
abbrev D0 : DotDims S10000x128 S128x64 S10000x64 := dot_S10000x128_S128x64_S10000x64_1_0_0_1_n_n

/-- Where the dimension numbers send an output index and a contraction index, coordinate by coordinate. -/
theorem dl0 (i : S10000x64.Idx) (q : D0.contr.Idx) : (D0.lhsIdx i q 0).val = (i 0).val := by
  unfold DotDims.lhsIdx
  rw [dif_neg (show ¬(0 : Fin S10000x128.rank) ∈ D0.lhsBatch by decide), dif_pos (show (0 : Fin S10000x128.rank) ∈ D0.lhsNonContracting by decide)]
  rfl
theorem dl1 (i : S10000x64.Idx) (q : D0.contr.Idx) : (D0.lhsIdx i q 1).val = (q ⟨0, by decide⟩).val :=
  D0.lhsIdx_val_of_single rfl i q
theorem dr0 (i : S10000x64.Idx) (q : D0.contr.Idx) : (D0.rhsIdx i q 0).val = (q ⟨0, by decide⟩).val :=
  D0.rhsIdx_val_of_single rfl i q
theorem dr1 (i : S10000x64.Idx) (q : D0.contr.Idx) : (D0.rhsIdx i q 1).val = (i 1).val := by
  unfold DotDims.rhsIdx
  rw [dif_neg (show ¬(1 : Fin S128x64.rank) ∈ D0.rhsBatch by decide), dif_pos (show (1 : Fin S128x64.rank) ∈ D0.rhsNonContracting by decide)]
  rfl

/-- The body's payload at row p, column q. -/
theorem pay_at (x0 : Vec Ideal S10000x128 .f32) (x1 : Vec Ideal S128x64 .f32) (x2 : Vec Ideal S1x64 .f32)
    (p : Fin 10000) (q : Fin 64) :
    k0_pay1 (F := Ideal) x0 x1 x2 (ix2 p q)
      = max ((∑ k : Fin 128, x0 (ix2 p k) * x1 (ix2 k q)) + x2 (ix2 (0 : Fin 1) q)) 0 := by
  unfold k0_pay1
  show max (FloatOps.matmul (F := Ideal) D0 none (truncf .bf16 x0 bitsLt_bf16_f32) (truncf .bf16 x1 bitsLt_bf16_f32) (constant (F := Ideal) S10000x64 .f32 0x00000000#32) (ix2 p q)
      + broadcastTo S10000x64 (shapeCast S1x64 x2 shapeCasts_S1x64_S1x64) broadcasts_S1x64_S10000x64 (ix2 p q)) (Ideal.ofBits .f32 0x00000000#32) = _
  rw [Cert.LibPlainMatmul.matmul_zero_at D0 none rfl rfl dl0 dl1 dr0 dr1, shapeCast_self, broadcastTo_1b_ab_apply, Ideal.ofBits_zero_f32]
  rfl

/-! ## The windows' blocks, read at an index -/

variable (V : (c : Dev nD) → (b : Ref sig .tc) → Buf (Elt Ideal) ((c : Thread nD τ).loc b))

/-- Where each window's block sits at grid point t (decided over the ten points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- The block of X at point t holds rows 10000 t … 10000 t + 9999. -/
theorem blkX_at (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : S100000x128.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The block of W at every point is W. -/
theorem blkW_at (c : Dev nD) (t : Fin cfg0.N) (k : Fin 128) (q : Fin 64) :
    (iblk0 V c 1 t : Vec Ideal S128x64 .f32) (ix2 k q) = (V c main_arg3 : S128x64.Idx → EReal) (ix2 k q) := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- The block of the bias row at every point is the bias row. -/
theorem blkB_at (c : Dev nD) (t : Fin cfg0.N) (q : Fin 64) :
    (iblk0 V c 2 t : Vec Ideal S1x64 .f32) (ix2 (0 : Fin 1) q) = (V c main_v0 : S1x64.Idx → EReal) (ix2 (0 : Fin 1) q) := by
  obtain ⟨-, -, -, -, e0, e1, -⟩ := idx_facts t
  unfold iblk0
  rw [View.read_apply]
  show V c main_v0 _ = V c main_v0 _
  congr 1
  funext a
  apply Fin.ext
  match a with
  | ⟨0, _⟩ => show win0_2.index t (0 : Fin 2) * 1 + 1 * 0 = 0; rw [e0]
  | ⟨1, _⟩ => show win0_2.index t (1 : Fin 2) * 64 + 1 * q.val = q.val; rw [e1]; omega

/-! ## From blocks to the array -/

/-- The encoder's output as one function of the region's three input arrays. -/
abbrev encOf (c : Dev nD) : S100000x64.Idx → EReal :=
  Cert.Spec.dense (M := 100000) (K := 128) (H := 64) (V c main_arg0) (V c main_arg3) (fun i => V c main_v0 (ix2 (0 : Fin 1) (i 0)))

/-- What grid point t writes back is block t of the dense layer of the input arrays. -/
theorem flushed_eq (c : Dev nD) (t : Fin cfg0.N) :
    (dat0 (F := Ideal) V c).flushed 3 t = ((cfg0.win 3).blk t).view.read (Elt Ideal) (encOf V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨-, -, -, -, -, -, e0, e1, ht⟩ := idx_facts t
  funext j
  show k0_pay1 (F := Ideal) (iblk0 V c 0 t) (iblk0 V c 1 t) (iblk0 V c 2 t) (j : S10000x64.Idx)
    = encOf V c (((cfg0.win 3).blk t).view.emb j)
  obtain ⟨p, q, rfl⟩ : ∃ (p : Fin 10000) (q : Fin 64), j = ix2 p q := ⟨j 0, j 1, eq_ix2 j⟩
  have hp : p.val < 10000 := p.isLt
  have hemb : ((cfg0.win 3).blk t).view.emb (ix2 p q) = (ix2 (⟨t.val * 10000 + p.val, by omega⟩ : Fin 100000) q : S100000x64.Idx) := by
    funext a
    apply Fin.ext
    match a with
    | ⟨0, _⟩ => show win0_3.index t (0 : Fin 2) * 10000 + 1 * p.val = t.val * 10000 + p.val; rw [e0]; omega
    | ⟨1, _⟩ => show win0_3.index t (1 : Fin 2) * 64 + 1 * q.val = q.val; rw [e1]; omega
  rw [hemb]
  refine (pay_at _ _ _ p q).trans (Eq.trans ?_ (Cert.Spec.dense_ix2 _ _ _ _ q).symm)
  rw [blkB_at V c t q]
  show max (_ + V c main_v0 (ix2 (0 : Fin 1) q)) 0 = max (_ + V c main_v0 (ix2 (0 : Fin 1) q)) 0
  refine congrArg (fun s => max (s + V c main_v0 (ix2 (0 : Fin 1) q)) 0) (Finset.sum_congr rfl fun k _ => ?_)
  rw [blkX_at V c t p k ⟨t.val * 10000 + p.val, by omega⟩ rfl, blkW_at V c t k q]

/-- An index of the array is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

/-- Every block index of the output is some point's. -/
theorem idx_onto : ∀ q0 : Fin 10, ∃ t : Fin cfg0.N, win0_3.index t (0 : Fin 2) = q0.val ∧ win0_3.index t (1 : Fin 2) = 0 :=
  (by decide +kernel : ∀ q0 : Fin 10, ∃ t : Fin grid0.N, win0_3.index t (0 : Fin 2) = q0.val ∧ win0_3.index t (1 : Fin 2) = 0)

/-- The ten blocks cover the array: row r is in the block of point r / 10000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, q0, q1⟩ := idx_onto ⟨(i 0).val / 10000, by omega⟩
  have q0' : win0_3.index t (0 : Fin 2) = (i 0).val / 10000 := q0
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after the region is the dense layer of the region's input arrays. -/
theorem enc_array (c : Dev nD) :
    (dat0 (F := Ideal) V c).arrAt 3 cfg0.N
      = Cert.Spec.dense (M := 100000) (K := 128) (H := 64) (V c (Pipeline.arrRef spec0 0)) (V c (Pipeline.arrRef spec0 1))
          (fun i => V c (Pipeline.arrRef spec0 2) (ix2 (0 : Fin 1) (i 0))) :=
  (dat0 (F := Ideal) V c).arrAt_eq_of_cover 3 (encOf V c) (fun t _ => flushed_eq V c t) (cover)

end Cert.EncArray

end
-- ==== Proof.OutArray.lean ====
/-
  The second region's output array as one whole-array function of the region's five input arrays.

  The region walks 20 row blocks of 5000 rows. At each block it forms the hidden layer
  H[p,h] = max(Σ_k C[p,k]·Wc[k,h] + bc[0,h], 0) and writes out[p,0] = logistic(Σ_h H[p,h]·Wo[h,0] + bo[0,0]).
  Here: the body's payload read at a row (the two matrix products as sums over the contracted coordinate, the bias
  rows broadcast over the rows, the format changes the identity on extended reals); each input block as rows of its
  array (the row window at rows 5000·t …, the four small windows whole); what each grid point writes back as block t
  of the whole-array function; the blocks cover the array (row r lies in block r / 5000); so the array after the
  region is that function: entry (n, 0) is the score of row n of the dense layer of C.
-/
import proofs.«127732_j37460704755814_2_alg».proof.Proof.Gen.KernelIdeal.Frame
import proofs.«127732_j37460704755814_2_alg».proof.Proof.Spec
import proofs.«127732_j37460704755814_2_alg».proof.Proof.LibPlainMatmul
import Idealize.ShloMosaic.Lib.Pipeline.Value
import Idealize.ShloMosaic.Lib.ValueLayout

noncomputable section

open scoped BigOperators

namespace Cert.OutArray

open Cert.KernelIdeal Cert.KernelIdeal.Gen Idealize.ShloMosaic Idealize.ShloMosaic.TcCoe Idealize.ShloMosaic.ValueIdx
open Idealize.ShloMosaic.Pipeline (Dat)

/-! ## The two matrix products' dimension numbers: where they send an output index and a contraction index -/

theorem dotA_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dotA_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dotA_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dotA_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem dotB_l0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem dotB_l1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem dotB_r0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem dotB_r1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-! ## The body's payload at an index -/

/-- The hidden layer of one block: entry (p, h) is max(Σ_k x0[p,k]·x1[k,h] + x2[0,h], 0). -/
def hid (x0 : Vec Ideal S5000x64 .bf16) (x1 : Vec Ideal S64x64 .f32) (x2 : Vec Ideal S1x64 .f32) (p : Fin 5000) (h : Fin 64) : EReal :=
  max ((∑ k : Fin 64, x0 (ix2 p k) * x1 (ix2 k h)) + x2 (ix2 (0 : Fin 1) h)) 0

/-- The payload at row p: the logistic function of Σ_h hid[p,h]·x3[h,0] + x4[0,0]. -/
theorem pay_at (x0 : Vec Ideal S5000x64 .bf16) (x1 : Vec Ideal S64x64 .f32) (x2 : Vec Ideal S1x64 .f32)
    (x3 : Vec Ideal S64x1 .f32) (x4 : Vec Ideal S1x1 .f32) (p : Fin 5000) :
    k1_pay1 (F := Ideal) x0 x1 x2 x3 x4 (ix2 p (0 : Fin 1))
      = Ideal.logistic ((∑ h : Fin 64, hid x0 x1 x2 p h * x3 (ix2 h (0 : Fin 1))) + x4 (ix2 (0 : Fin 1) (0 : Fin 1))) := by
  unfold k1_pay1
  refine congrArg Ideal.logistic ?_
  refine congrArg₂ (· + ·) ?_ ?_
  · refine (Cert.LibPlainMatmul.matmul_zero_at dot_S5000x64_S64x1_S5000x1_1_0_0_1_n_n none rfl rfl dotB_l0 dotB_l1 dotB_r0 dotB_r1 _ _ p (0 : Fin 1)).trans ?_
    refine Finset.sum_congr rfl fun h _ => ?_
    refine congrArg₂ (· * ·) ?_ rfl
    show max (FloatOps.matmul (F := Ideal) dot_S5000x64_S64x64_S5000x64_1_0_0_1_n_n none _ _ (constant S5000x64 .f32 0x00000000#32) (ix2 p h) + broadcastTo S5000x64 _ broadcasts_S1x64_S5000x64 (ix2 p h)) (Ideal.ofBits .f32 0x00000000#32) = _
    rw [Cert.LibPlainMatmul.matmul_zero_at dot_S5000x64_S64x64_S5000x64_1_0_0_1_n_n none rfl rfl dotA_l0 dotA_l1 dotA_r0 dotA_r1, broadcastTo_1b_ab_apply, Ideal.ofBits_zero_f32]
    simp only [shapeCast_self]
    rfl
  · refine (broadcastTo_1b_ab_apply _ broadcasts_S1x1_S5000x1 p (0 : Fin 1)).trans ?_
    rw [shapeCast_self]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The region's output array as one function of its five input arrays: entry (n, 0) is the score of row n of the
    dense layer of the first array. -/
def outFn (C : S100000x64.Idx → EReal) (Wc : S64x64.Idx → EReal) (bc : S1x64.Idx → EReal) (Wo : S64x1.Idx → EReal)
    (bo : S1x1.Idx → EReal) : S100000x1.Idx → EReal :=
  fun i => Cert.Spec.score (Cert.Spec.dense C Wc (fun j => bc (ix2 (0 : Fin 1) (j 0)))) Wo (fun _ => bo (ix2 (0 : Fin 1) (0 : Fin 1))) (i 0)

/-- The block indices over the grid: the row windows are at block (t, 0), the whole-array windows at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000·t … 5000·t + 4999 of its array. -/
theorem blk0_at (c : Dev nD) (t : Fin cfg1.N) (x : S5000x64.Idx) (i : S100000x64.Idx)
    (h0 : (i 0).val = t.val * 5000 + (x 0).val) (h1 : (i 1).val = (x 1).val) :
    (iblk1 V c 0 t : Vec Ideal S5000x64 .bf16) x = (V c (Pipeline.arrRef spec1 0) : S100000x64.Idx → EReal) i := by
  obtain ⟨e0, e1, -⟩ := idx_facts t
  unfold iblk1
  rw [View.read_apply]
  show V c (Pipeline.arrRef spec1 0) (((cfg1.win 0).blk t).view.emb x) = V c (Pipeline.arrRef spec1 0) i
  refine congrArg _ (funext fun a => Fin.ext ?_)
  match a with
  | ⟨0, _⟩ => show win1_0.index t (0 : Fin 2) * 5000 + 1 * (x 0).val = (i 0).val; rw [e0, h0]; omega
  | ⟨1, _⟩ => show win1_0.index t (1 : Fin 2) * 64 + 1 * (x 1).val = (i 1).val; rw [e1, h1]; omega

/-- Window 1's block at every point is its whole array. -/
theorem blk1_eq (c : Dev nD) (t : Fin cfg1.N) :
    (iblk1 V c 1 t : Vec Ideal S64x64 .f32) = (V c (Pipeline.arrRef spec1 1) : S64x64.Idx → EReal) := by
  obtain ⟨-, -, e0, e1, -⟩ := idx_facts t
  funext x
  unfold iblk1
  rw [View.read_apply]
  show V c (Pipeline.arrRef spec1 1) (((cfg1.win 1).blk t).view.emb x) = V c (Pipeline.arrRef spec1 1) x
  refine congrArg _ (funext fun a => Fin.ext ?_)
  match a with
  | ⟨0, _⟩ => show win1_1.index t (0 : Fin 2) * 64 + 1 * (x 0).val = (x 0).val; rw [e0]; omega
  | ⟨1, _⟩ => show win1_1.index t (1 : Fin 2) * 64 + 1 * (x 1).val = (x 1).val; rw [e1]; omega

/-- Window 2's block at every point is its whole array. -/
theorem blk2_eq (c : Dev nD) (t : Fin cfg1.N) :
    (iblk1 V c 2 t : Vec Ideal S1x64 .f32) = (V c (Pipeline.arrRef spec1 2) : S1x64.Idx → EReal) := by
  obtain ⟨-, -, -, -, e0, e1, -⟩ := idx_facts t
  funext x
  unfold iblk1
  rw [View.read_apply]
  show V c (Pipeline.arrRef spec1 2) (((cfg1.win 2).blk t).view.emb x) = V c (Pipeline.arrRef spec1 2) x
  refine congrArg _ (funext fun a => Fin.ext ?_)
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- Window 3's block at every point is its whole array. -/
theorem blk3_eq (c : Dev nD) (t : Fin cfg1.N) :
    (iblk1 V c 3 t : Vec Ideal S64x1 .f32) = (V c (Pipeline.arrRef spec1 3) : S64x1.Idx → EReal) := by
  obtain ⟨-, -, -, -, -, -, e0, e1, -⟩ := idx_facts t
  funext x
  unfold iblk1
  rw [View.read_apply]
  show V c (Pipeline.arrRef spec1 3) (((cfg1.win 3).blk t).view.emb x) = V c (Pipeline.arrRef spec1 3) x
  refine congrArg _ (funext fun a => Fin.ext ?_)
  match a with
  | ⟨0, _⟩ => show win1_3.index t (0 : Fin 2) * 64 + 1 * (x 0).val = (x 0).val; rw [e0]; omega
  | ⟨1, _⟩ => show win1_3.index t (1 : Fin 2) * 1 + 1 * (x 1).val = (x 1).val; rw [e1]; omega

/-- Window 4's block at every point is its whole array. -/
theorem blk4_eq (c : Dev nD) (t : Fin cfg1.N) :
    (iblk1 V c 4 t : Vec Ideal S1x1 .f32) = (V c (Pipeline.arrRef spec1 4) : S1x1.Idx → EReal) := by
  obtain ⟨-, -, -, -, -, -, -, -, e0, e1, -⟩ := idx_facts t
  funext x
  unfold iblk1
  rw [View.read_apply]
  show V c (Pipeline.arrRef spec1 4) (((cfg1.win 4).blk t).view.emb x) = V c (Pipeline.arrRef spec1 4) x
  refine congrArg _ (funext fun a => Fin.ext ?_)
  match a with
  | ⟨0, _⟩ => show win1_4.index t (0 : Fin 2) * 1 + 1 * (x 0).val = (x 0).val; rw [e0]; omega
  | ⟨1, _⟩ => show win1_4.index t (1 : Fin 2) * 1 + 1 * (x 1).val = (x 1).val; rw [e1]; omega

/-- The payload over a row block and the four whole arrays, at row p, is the whole-array function at row r of the
    array whose rows r, … the block holds. -/
theorem pay_row (C : S100000x64.Idx → EReal) (x0 : Vec Ideal S5000x64 .bf16) (x1 : Vec Ideal S64x64 .f32) (x2 : Vec Ideal S1x64 .f32)
    (x3 : Vec Ideal S64x1 .f32) (x4 : Vec Ideal S1x1 .f32) (p : Fin 5000) (i : S100000x1.Idx)
    (hx : ∀ k : Fin 64, x0 (ix2 p k) = C (ix2 (i 0) k)) :
    k1_pay1 (F := Ideal) x0 x1 x2 x3 x4 (ix2 p (0 : Fin 1)) = outFn C x1 x2 x3 x4 i := by
  rw [pay_at]
  unfold outFn Cert.Spec.score
  refine congrArg Ideal.logistic (congrArg₂ (· + ·) (Finset.sum_congr rfl fun h _ => congrArg₂ (· * ·) ?_ rfl) rfl)
  show max ((∑ k : Fin 64, x0 (ix2 p k) * x1 (ix2 k h)) + x2 (ix2 (0 : Fin 1) h)) 0
    = max ((∑ k : Fin 64, C (ix2 (i 0) k) * x1 (ix2 k h)) + x2 (ix2 (0 : Fin 1) h)) 0
  refine congrArg₂ max (congrArg₂ (· + ·) (Finset.sum_congr rfl fun k _ => congrArg₂ (· * ·) (hx k) rfl) rfl) rfl

/-- What point t writes back is block t of the whole-array function of the region's input arrays. -/
theorem flushed_eq (c : Dev nD) (t : Fin cfg1.N) :
    (dat1 (F := Ideal) V c).flushed 5 t = ((cfg1.win 5).blk t).view.read (Elt Ideal)
      (outFn (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  rw [blk1_eq, blk2_eq, blk3_eq, blk4_eq]
  obtain ⟨-, -, -, -, -, -, -, -, -, -, e0, e1⟩ := idx_facts t
  funext y
  obtain ⟨p, q, rfl⟩ : ∃ (p : Fin 5000) (q : Fin 1), y = ix2 p q := ⟨y 0, y 1, eq_ix2 y⟩
  obtain rfl : q = 0 := Subsingleton.elim _ _
  show k1_pay1 (F := Ideal) (iblk1 V c 0 t) _ _ _ _ (ix2 p (0 : Fin 1)) = outFn _ _ _ _ _ (((cfg1.win 5).blk t).view.emb (ix2 p (0 : Fin 1)))
  refine pay_row _ _ _ _ _ _ p _ fun k => ?_
  refine blk0_at V c t _ _ ?_ rfl
  show win1_5.index t (0 : Fin 2) * 5000 + 1 * p.val = _
  rw [e0]; show _ = t.val * 5000 + p.val; omega

/-- An index of the output array is in point t's block iff each coordinate is in the block's range on its axis. -/
theorem mem_blk (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v25).slice (win1_5.rect t)).set ↔ _
  rw [View.set_slice_whole, Rect.mem_set_unit]
  exact Iff.rfl

/-- Row r of the output array is in the block of point r / 5000, which is written back. -/
theorem cover (i : S100000x1.Idx) : ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 20 := N_1
  have ht : (i 0).val / 5000 < cfg1.N := by rw [hN]; omega
  obtain ⟨-, -, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 1 ≤ (i 1).val ∧ (i 1).val < win1_5.index ⟨(i 0).val / 5000, ht⟩ (1 : Fin 2) * 1 + 1
    rw [e1]; omega

/-- The output array after the region: the whole-array function of the region's input arrays. -/
theorem final (c : Dev nD) :
    (dat1 (F := Ideal) V c).arrAt 5 cfg1.N
      = outFn (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed_eq V c t) cover

theorem out_array (c : Dev nD) :
    (dat1 (F := Ideal) V c).arrAt 5 cfg1.N
      = fun i => Cert.Spec.score (Cert.Spec.dense (V c (Pipeline.arrRef spec1 0)) (V c (Pipeline.arrRef spec1 1)) (fun j => V c (Pipeline.arrRef spec1 2) (ix2 0 (j 0))))
          (V c (Pipeline.arrRef spec1 3)) (fun _ => V c (Pipeline.arrRef spec1 4) (ix2 0 0)) (i 0) :=
  final V c

end Cert.OutArray

end
-- ==== Proof.RefValue.lean ====
/-
  The reference program's result, at the ideal values, is the function G of Spec.lean.

  Read operation by operation: the first dense layer relu(X·We + be) is `Spec.dense`; the gather along the edges, the
  scatter-add into the zero array and the addition of the embeddings are `Spec.mid` (the sum over the update positions
  whose scatter index lands on a node of the embedding gathered there); the second dense layer is `Spec.dense` again;
  the last gather reads row `Spec.rowOf` of it (the selection word read signed and clamped into the table); and
  1 / (1 + exp(−z)) at z = row · Wo + bo is the logistic function of `Spec.score`.
  The three integer index arrays stay as the program computes them: they are arguments of G.
-/
import proofs.«127732_j37460704755814_2_alg».proof.Proof.Gen.ReferenceIdeal.Read
import proofs.«127732_j37460704755814_2_alg».proof.Proof.Spec
import Idealize.ShloMosaic.Lib.IdealHost

noncomputable section

open scoped BigOperators

namespace Cert.RefValue

open Cert.ReferenceIdeal Cert.ReferenceIdeal.Gen Idealize.ShloMosaic Idealize.ShloMosaic.ValueIdx

/-- The first dense layer read at (n, h). -/
theorem v4_ix (x0 : (⟨S100000x128, .f32⟩ : BufTy).Contents (Elt Ideal)) (x3 : (⟨S128x64, .f32⟩ : BufTy).Contents (Elt Ideal))
    (x4 : (⟨S64, .f32⟩ : BufTy).Contents (Elt Ideal)) (n : Fin 100000) (h : Fin 64) :
    Read.val_main_v4 (F := Ideal) x0 x3 x4 (ix2 n h)
      = max ((∑ k : Fin 128, x0 (ix2 n k) * x3 (ix2 k h)) + x4 (ix1 h)) 0 := by
  rw [Read.val_main_v4_apply, Read.val_main_v3_apply, Read.val_main_v0_apply, Read.val_main_v2_apply,
    Read.val_main_v1_apply, Read.val_main_call0_v0_apply, Read.val_main_call0_cst_apply]
  have el : ∀ k : Fin 128, Read.lidx_main_v0 (ix2 n h) k = ix2 n k := fun k =>
    funext fun a => by match a with | ⟨0, _⟩ => rfl | ⟨1, _⟩ => rfl
  have er : ∀ k : Fin 128, Read.ridx_main_v0 (ix2 n h) k = ix2 k h := fun k =>
    funext fun a => by match a with | ⟨0, _⟩ => rfl | ⟨1, _⟩ => rfl
  have eb : Read.idx_main_v1 (Read.idx_main_v2 (ix2 n h)) = ix1 h :=
    funext fun a => by match a with | ⟨0, _⟩ => rfl
  simp only [el, er, eb]
  show max (_ + _) (Ideal.ofBits .f32 0x00000000#32) = _
  rw [Ideal.ofBits_zero_f32]

/-- The first dense layer as an array: relu(X·We + be). -/
theorem v4_eq (x0 : (⟨S100000x128, .f32⟩ : BufTy).Contents (Elt Ideal)) (x3 : (⟨S128x64, .f32⟩ : BufTy).Contents (Elt Ideal))
    (x4 : (⟨S64, .f32⟩ : BufTy).Contents (Elt Ideal)) :
    Read.val_main_v4 (F := Ideal) x0 x3 x4 = Cert.Spec.dense x0 x3 x4 := by
  funext i
  obtain ⟨n, h, rfl⟩ : ∃ (n : Fin 100000) (h : Fin 64), i = ix2 n h := ⟨i 0, i 1, eq_ix2 i⟩
  rw [v4_ix, Cert.Spec.dense_ix2]

/-- The row gather reads operand index (rowOf idx p, h) at result index (p, h): axis 0 is the start index read signed and
    clamped into [0, 99999] (the slice there has size one), axis 1 is the offset coordinate. -/
theorem rowGather_idx (idx : IVec S50000x1 32) (p : Fin 50000) (h : Fin 64) :
    gather_S100000x64_S50000x1_S50000x64_1_0_n_n_0_1_164.operandIdx (ix2 p h) idx
      = ix2 (Cert.Spec.rowOf idx p) h := by
  funext a
  refine Fin.ext ?_
  match a with
  | ⟨0, _⟩ =>
    show gather_S100000x64_S50000x1_S50000x64_1_0_n_n_0_1_164.start (ix2 p h) idx 0
        + gather_S100000x64_S50000x1_S50000x64_1_0_n_n_0_1_164.batchCoord (ix2 p h) 0
        + gather_S100000x64_S50000x1_S50000x64_1_0_n_n_0_1_164.offCoord (ix2 p h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S100000x64_S50000x1_S50000x64_1_0_n_n_0_1_164.startIndexMap from
      List.mem_singleton.mpr rfl)]
    have hsi : gather_S100000x64_S50000x1_S50000x64_1_0_n_n_0_1_164.siIdx (ix2 p h)
        ⟨List.idxOf (0 : Fin 2) gather_S100000x64_S50000x1_S50000x64_1_0_n_n_0_1_164.startIndexMap,
          List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show gather_S100000x64_S50000x1_S50000x64_1_0_n_n_0_1_164.start (ix2 p h) idx 1
        + gather_S100000x64_S50000x1_S50000x64_1_0_n_n_0_1_164.batchCoord (ix2 p h) 1
        + gather_S100000x64_S50000x1_S50000x64_1_0_n_n_0_1_164.offCoord (ix2 p h) 1 = h.val
    rw [GatherDims.batchCoord_eq_zero _ _ _ List.not_mem_nil]
    unfold GatherDims.start
    rw [dif_neg (show ¬ (1 : Fin 2) ∈ gather_S100000x64_S50000x1_S50000x64_1_0_n_n_0_1_164.startIndexMap by decide)]
    unfold GatherDims.offCoord
    rw [dif_pos (show (1 : Fin 2) ∈ gather_S100000x64_S50000x1_S50000x64_1_0_n_n_0_1_164.sKept by decide)]
    simp only [Nat.zero_add, Nat.add_zero]
    rfl

/-- A scatter-add into an array of zeros, of the rows a gather reads: at each element the sum, over the update positions
    whose scatter index lands on it, of the gathered element. -/
theorem scatterAdd_zero_gather {s si su : Shape} (g : GatherDims s si su) (d : ScatterDims s si su) {w : Nat}
    (E z : s.Idx → EReal) (hz : ∀ i, z i = 0) (src dst : IVec si w) (i : s.Idx) :
    Host.scatterAdd (F := Ideal) (φ := .f32) d z dst (Host.gather g E src) i
      = ∑ j ∈ Finset.univ.filter (fun j => d.resultIdx? j dst = some i), E (g.operandIdx j src) := by
  show z i + _ = _
  rw [hz, zero_add]
  rfl

/-- The message step: the embeddings plus, at each node, the sum of the embeddings gathered along the edges whose
    destination index lands on it (the scatter adds into the zero array, so its own term vanishes). -/
theorem v19_eq (x0 : (⟨S100000x128, .f32⟩ : BufTy).Contents (Elt Ideal)) (x1 : (⟨S2x1200000, .i32⟩ : BufTy).Contents (Elt Ideal))
    (x3 : (⟨S128x64, .f32⟩ : BufTy).Contents (Elt Ideal)) (x4 : (⟨S64, .f32⟩ : BufTy).Contents (Elt Ideal)) :
    Read.val_main_v19 (F := Ideal) x0 x1 x3 x4
      = Cert.Spec.mid gather_S100000x64_S1200000x1_S1200000x64_1_0_n_n_0_1_164 scatter_S100000x64_S1200000x1_S1200000x64_1_0_0_1
          (Cert.Spec.dense x0 x3 x4) (Read.val_main_v14 (F := Ideal) x1) (Read.val_main_v17 (F := Ideal) x1) := by
  funext i
  have h18 : Read.val_main_v18 (F := Ideal) x0 x1 x3 x4 i = _ :=
    scatterAdd_zero_gather gather_S100000x64_S1200000x1_S1200000x64_1_0_n_n_0_1_164
      scatter_S100000x64_S1200000x1_S1200000x64_1_0_0_1 (Read.val_main_v4 (F := Ideal) x0 x3 x4) (Read.val_main_v16 (F := Ideal))
      (fun i => by rw [Read.val_main_v16_apply, Read.val_main_cst_apply, Ideal.ofBits_def, Ideal.ofBits_zero_f32])
      (Read.val_main_v14 (F := Ideal) x1) (Read.val_main_v17 (F := Ideal) x1) i
  rewrite [Read.val_main_v19_apply, h18, ← v4_eq]
  unfold Cert.Spec.mid
  rewrite [Ideal.addf_def]
  with_reducible rfl

/-- The second dense layer read at (n, h), over the message step's array. -/
theorem v24_ix (x0 : (⟨S100000x128, .f32⟩ : BufTy).Contents (Elt Ideal)) (x1 : (⟨S2x1200000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (n : Fin 100000) (h : Fin 64) :
    Read.val_main_v24 (F := Ideal) x0 x1 x3 x4 x5 x6 (ix2 n h)
      = max ((∑ k : Fin 64, Read.val_main_v19 (F := Ideal) x0 x1 x3 x4 (ix2 n k) * x5 (ix2 k h)) + x6 (ix1 h)) 0 := by
  rw [Read.val_main_v24_apply, Read.val_main_v23_apply, Read.val_main_v20_apply, Read.val_main_v22_apply,
    Read.val_main_v21_apply, Read.val_main_call1_v0_apply, Read.val_main_call1_cst_apply]
  have el : ∀ k : Fin 64, Read.lidx_main_v20 (ix2 n h) k = ix2 n k := fun k =>
    funext fun a => by match a with | ⟨0, _⟩ => rfl | ⟨1, _⟩ => rfl
  have er : ∀ k : Fin 64, Read.ridx_main_v20 (ix2 n h) k = ix2 k h := fun k =>
    funext fun a => by match a with | ⟨0, _⟩ => rfl | ⟨1, _⟩ => rfl
  have eb : Read.idx_main_v21 (Read.idx_main_v22 (ix2 n h)) = ix1 h :=
    funext fun a => by match a with | ⟨0, _⟩ => rfl
  simp only [el, er, eb]
  show max (_ + _) (Ideal.ofBits .f32 0x00000000#32) = _
  rw [Ideal.ofBits_zero_f32]

/-- The second dense layer as an array: relu(M·Wc + bc) over the message step's array M. -/
theorem v24_eq (x0 : (⟨S100000x128, .f32⟩ : BufTy).Contents (Elt Ideal)) (x1 : (⟨S2x1200000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    Read.val_main_v24 (F := Ideal) x0 x1 x3 x4 x5 x6
      = Cert.Spec.dense (Read.val_main_v19 (F := Ideal) x0 x1 x3 x4) x5 x6 := by
  funext i
  obtain ⟨n, h, rfl⟩ : ∃ (n : Fin 100000) (h : Fin 64), i = ix2 n h := ⟨i 0, i 1, eq_ix2 i⟩
  rw [v24_ix, Cert.Spec.dense_ix2]

/-- The pre-activation of the output layer at position p: the selected row of the second dense layer times the output
    weights, plus the output bias. -/
theorem v36_ix (x0 : (⟨S100000x128, .f32⟩ : BufTy).Contents (Elt Ideal)) (x1 : (⟨S2x1200000, .i32⟩ : BufTy).Contents (Elt Ideal))
    (x2 : (⟨S50000, .i32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x1, .f32⟩ : BufTy).Contents (Elt Ideal))
    (x8 : (⟨S1, .f32⟩ : BufTy).Contents (Elt Ideal)) (p : Fin 50000) :
    Read.val_main_v36 (F := Ideal) x0 x1 x2 x3 x4 x5 x6 x7 x8 (ix1 p)
      = (∑ k : Fin 64, Read.val_main_v24 (F := Ideal) x0 x1 x3 x4 x5 x6
            (ix2 (Cert.Spec.rowOf (Read.val_main_v30 (F := Ideal) x2) p) k) * x7 (ix2 k 0)) + x8 (ix1 0) := by
  rw [Read.val_main_v36_apply, Read.val_main_v35_apply, Read.val_main_v32_apply, Read.val_main_v34_apply,
    Read.val_main_v33_apply]
  have e36 : Read.idx_main_v36 (ix1 p) = ix2 p 0 :=
    funext fun a => Fin.ext (by match a with | ⟨0, _⟩ => exact Nat.div_one _ | ⟨1, _⟩ => rfl)
  rw [e36]
  have el : ∀ k : Fin 64, Read.lidx_main_v32 (ix2 p (0 : Fin 1)) k = ix2 p k := fun k =>
    funext fun a => by match a with | ⟨0, _⟩ => rfl | ⟨1, _⟩ => rfl
  have er : ∀ k : Fin 64, Read.ridx_main_v32 (ix2 p (0 : Fin 1)) k = ix2 k 0 := fun k =>
    funext fun a => by match a with | ⟨0, _⟩ => rfl | ⟨1, _⟩ => rfl
  have eb : Read.idx_main_v33 (Read.idx_main_v34 (ix2 p (0 : Fin 1))) = ix1 0 :=
    funext fun a => by match a with | ⟨0, _⟩ => rfl
  simp only [el, er, eb]
  unfold Read.val_main_v31 Host.gather
  simp only [rowGather_idx]
  rewrite [Ideal.addf_def]
  with_reducible rfl

/-- The reference's result is G: position p holds 1 / (1 + exp(−z)) at z the output layer's pre-activation of the row
    the p-th selection index names, which is the logistic function of `Spec.score`. -/
theorem ref_is_G (x0 : (⟨S100000x128, .f32⟩ : BufTy).Contents (Elt Ideal)) (x1 : (⟨S2x1200000, .i32⟩ : BufTy).Contents (Elt Ideal))
    (x2 : (⟨S50000, .i32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x1, .f32⟩ : BufTy).Contents (Elt Ideal))
    (x8 : (⟨S1, .f32⟩ : BufTy).Contents (Elt Ideal)) :
    Cert.ReferenceIdeal.Read.val_main_v42 (F := Ideal) x0 x1 x2 x3 x4 x5 x6 x7 x8
      = Cert.Spec.G gather_S100000x64_S1200000x1_S1200000x64_1_0_n_n_0_1_164 scatter_S100000x64_S1200000x1_S1200000x64_1_0_0_1
          x0 x3 x4 x5 x6 x7 x8
          (Cert.ReferenceIdeal.Read.val_main_v14 (F := Ideal) x1)
          (Cert.ReferenceIdeal.Read.val_main_v17 (F := Ideal) x1)
          (Cert.ReferenceIdeal.Read.val_main_v30 (F := Ideal) x2) := by
  funext q
  obtain ⟨p, rfl⟩ : ∃ p : Fin 50000, q = ix1 p := ⟨q 0, eq_ix1 q⟩
  rw [Read.val_main_v42_apply, Read.val_main_v41_apply, Read.val_main_cst_4_apply, Read.val_main_v40_apply,
    Read.val_main_v39_apply, Read.val_main_cst_3_apply, Read.val_main_v38_apply, Read.val_main_v37_apply, v36_ix,
    v24_eq, v19_eq]
  rewrite [Ideal.ofBits_def, Ideal.ofBits_one_f32, Ideal.hostDivf_def, Ideal.addf_def, Ideal.hostUnary_exp_def,
    Ideal.hostNegf_def, Ideal.negf_def]
  unfold Cert.Spec.G Cert.Spec.score Ideal.logistic
  rfl

end Cert.RefValue

end
-- ==== Proof.Bridge.lean ====
/-
  The two programs compute the specified function at the same index arrays.

  Both programs spell the source indices and the selection indices by the same operations, so those arrays are the
  same terms. The destinations differ in spelling only: the kernel program shifts a negative destination up by the
  number of nodes before scattering, the reference scatters at the raw word. Where no destination word is negative
  the shift selects the raw word everywhere, and the two index arrays are equal. The dimension records of the two
  programs hold the same numbers.
-/
import proofs.«127732_j37460704755814_2_alg».proof.Proof.KHost
import proofs.«127732_j37460704755814_2_alg».proof.Proof.Spec
import proofs.«127732_j37460704755814_2_alg».proof.Proof.Gen.ReferenceIdeal.Read

set_option maxRecDepth 16384

noncomputable section

namespace Cert.Bridge

open Idealize.ShloMosaic Idealize.ShloMosaic.ValueIdx

section Wrap
open Cert.KernelIdeal Cert.KernelIdeal.Gen

/-- A column of start indices none of which is negative is not changed by the wrap. -/
theorem wrapCol_eq (v : IVec S1200000 32) (h : ∀ e : S1200000.Idx, IntOp.cmpi .slt (v e) 0#32 = 0#1) :
    Cert.KHost.wrapCol v = broadcastInDim (s := S1200000) S1200000x1 ![0] bcast_S1200000_S1200000x1_0 v := by
  have hsel : select (cmpi .slt v (broadcastInDim S1200000 ![] bcast_S_S1200000 (constantI S_ 32 0#32)))
      (addi v (broadcastInDim S1200000 ![] bcast_S_S1200000 (constantI S_ 32 100000#32))) v = v := by
    funext e
    show Scalar.select (IntOp.cmpi .slt (v e) 0#32) _ _ = _
    rw [h e]
    rfl
  show broadcastInDim (s := S1200000) S1200000x1 ![0] bcast_S1200000_S1200000x1_0 _ = _
  rw [hsel]

end Wrap

/-- Where no destination word is negative, the wrapped destinations are the raw destinations. -/
theorem dst_eq (x1 : IVec Cert.KernelIdeal.S2x1200000 32)
    (hdst : ∀ e : Cert.KernelIdeal.S1200000.Idx, IntOp.cmpi .slt (Cert.KHost.edgeRow1 x1 e) 0#32 = 0#1) :
    Cert.KHost.dstIdx x1 = Cert.ReferenceIdeal.Read.val_main_v17 (F := Ideal) x1 :=
  (wrapCol_eq (Cert.KHost.edgeRow1 x1) hdst).trans rfl

/-- The specified function at the kernel program's index arrays and records is the specified function at the
    reference's, where no destination word is negative. -/
theorem G_agree (x0 : Cert.Spec.SX.Idx → EReal) (x1 : IVec Cert.KernelIdeal.S2x1200000 32) (x2 : IVec Cert.KernelIdeal.S50000 32)
    (x3 : (⟨2, ![128, 64]⟩ : Shape).Idx → EReal) (x4 : (⟨1, ![64]⟩ : Shape).Idx → EReal)
    (x5 : (⟨2, ![64, 64]⟩ : Shape).Idx → EReal) (x6 : (⟨1, ![64]⟩ : Shape).Idx → EReal)
    (x7 : (⟨2, ![64, 1]⟩ : Shape).Idx → EReal) (x8 : (⟨1, ![1]⟩ : Shape).Idx → EReal)
    (hdst : ∀ e : Cert.KernelIdeal.S1200000.Idx, IntOp.cmpi .slt (Cert.KHost.edgeRow1 x1 e) 0#32 = 0#1) :
    Cert.Spec.G Cert.KernelIdeal.gather_S100000x64_S1200000x1_S1200000x64_1_0_n_n_0_1_164
        Cert.KernelIdeal.scatter_S100000x64_S1200000x1_S1200000x64_1_0_0_1
        x0 x3 x4 x5 x6 x7 x8 (Cert.KHost.srcIdx x1) (Cert.KHost.dstIdx x1) (Cert.KHost.pmIdx x2)
      = Cert.Spec.G Cert.ReferenceIdeal.gather_S100000x64_S1200000x1_S1200000x64_1_0_n_n_0_1_164
        Cert.ReferenceIdeal.scatter_S100000x64_S1200000x1_S1200000x64_1_0_0_1
        x0 x3 x4 x5 x6 x7 x8 (Cert.ReferenceIdeal.Read.val_main_v14 (F := Ideal) x1)
        (Cert.ReferenceIdeal.Read.val_main_v17 (F := Ideal) x1) (Cert.ReferenceIdeal.Read.val_main_v30 (F := Ideal) x2) := by
  rw [dst_eq x1 hdst]
  rfl

end Cert.Bridge

end
-- ==== Proof.PreDst.lean ====
/-
  What the precondition says about the destination row of the edge list.

  The precondition is a conjunction of "all" tests; its last conjunct tests every entry of the edge list's second
  row (the destination of each edge) for being non-negative as a signed 32-bit word. A conjunction that is 1 has
  every conjunct 1, and an "all" that is 1 has a 1 at every position, so every destination word d satisfies d ≥ 0
  signed, hence is not < 0 signed.
-/
import proofs.«127732_j37460704755814_2_alg».proof.Defs
import proofs.«127732_j37460704755814_2_alg».proof.Proof.Gen.Pre_finite_inputs
import Idealize.ShloMosaic.Lib.ReduceAll
import Idealize.ShloMosaic.Lib.Affine
import Idealize.ShloMosaic.Lib.ValueIdx

set_option maxRecDepth 16384

noncomputable section

namespace Cert.PreDst

open Idealize.ShloMosaic Idealize.ShloMosaic.TcCoe Idealize.ShloMosaic.ValueIdx Idealize.SL.Sem
open Cert.Pre_finite_inputs Cert.Pre_finite_inputs.Gen

instance : Subsingleton S_.Idx := ⟨fun a b => funext fun d => d.elim0⟩

/-- A word that is ≥ 0 signed is not < 0 signed. -/
theorem slt_zero_of_sge (w : BitVec 32) (h : IntOp.cmpi .sge w 0#32 = 1#1) : IntOp.cmpi .slt w 0#32 = 0#1 := by
  change BitVec.ofBool ((0#32 : BitVec 32).sle w) = 1#1 at h
  have h' : (0#32 : BitVec 32).sle w = true := by
    cases hb : (0#32 : BitVec 32).sle w
    · rw [hb] at h; exact absurd h (by decide)
    · rfl
  have h2 : w.slt 0#32 = false := by
    simp only [BitVec.slt, BitVec.sle, decide_eq_true_eq] at h'
    simp only [BitVec.slt, decide_eq_false_iff_not]
    omega
  show BitVec.ofBool (w.slt 0#32) = 0#1
  rw [h2]; rfl

/-- The destination row as every program spells it: row 1 of the edge list, as a vector. -/
abbrev dstRow (x1 : IVec S2x1200000 32) : IVec S1200000 32 :=
  shapeCast S1200000 (extractStridedSlice S1x1200000 ![1, 0] x1 Facts.slices_S2x1200000_S1x1200000_1_0) Facts.shapeCasts_S1x1200000_S1200000

/-- Under the precondition every destination word is non-negative. -/
theorem dst_sge (m : (ℓ : Loc Cert.KernelIdeal.nD Cert.KernelIdeal.τ Cert.KernelIdeal.sig) → Buf (Elt Ideal) ℓ)
    (h : Cert.Pre_KernelIdeal m) (c : Dev Cert.KernelIdeal.nD) (e : S1200000.Idx) :
    IntOp.cmpi .sge (dstRow (m ((c.tc : Thread Cert.KernelIdeal.nD Cert.KernelIdeal.τ).loc Cert.KernelIdeal.main_arg1)) e) 0#32 = 1#1 := by
  have e0 := congrFun (h c) ix0
  unfold Cert.Pre_finite_inputs.fn Cert.Pre_finite_inputs.fn_part1 Cert.Pre_finite_inputs.fn_part2 at e0
  have e1 := (IntOp.andi_eq_one.1 e0).2
  exact Host.reduce_andi_all _ _ _ _ ix0 e1 e

/-- Under the precondition no destination word is negative. -/
theorem dst_not_slt (m : (ℓ : Loc Cert.KernelIdeal.nD Cert.KernelIdeal.τ Cert.KernelIdeal.sig) → Buf (Elt Ideal) ℓ)
    (h : Cert.Pre_KernelIdeal m) (c : Dev Cert.KernelIdeal.nD) (e : S1200000.Idx) :
    IntOp.cmpi .slt (dstRow (m ((c.tc : Thread Cert.KernelIdeal.nD Cert.KernelIdeal.τ).loc Cert.KernelIdeal.main_arg1)) e) 0#32 = 0#1 :=
  slt_zero_of_sge _ (dst_sge m h c e)

end Cert.PreDst

end
-- ==== Proof.lean ====
/-
  The certificate's five claims.

  The kernel computes, in two tiled matrix kernels with host gather and scatter between them, and the reference in
  plain array code: E = relu(X·W_enc + b_enc); C = E plus, at each edge's destination node, the row of E at the edge's
  source node; H = relu(C·W_conv + b_conv); and, at each selected node n, the logistic score of H[n]·W_out + b_out.
  The kernel scores every node and selects afterwards, the reference selects rows and then scores: a row-wise map
  commutes with selecting rows. The kernel adds the edge messages into a copy of E, the reference sums them into zeros
  and adds E: over the extended reals x + s = x + (0 + s). The kernel's scatter shifts a negative destination index up
  by the number of nodes where the reference's segment sum drops it, so the two agree exactly where no destination
  index is negative, which the precondition states beside the finiteness of the float inputs (finiteness is not used:
  every step is a re-indexing, commutativity or the neutrality of zero, which hold at the infinities too).
  The three frames are the generated frame runs; the idealization rewrote nothing.
-/
import proofs.«127732_j37460704755814_2_alg».proof.Defs
import proofs.«127732_j37460704755814_2_alg».proof.Proof.Gen.Kernel
import proofs.«127732_j37460704755814_2_alg».proof.Proof.Gen.Kernel.Frame
import proofs.«127732_j37460704755814_2_alg».proof.Proof.Gen.KernelIdeal
import proofs.«127732_j37460704755814_2_alg».proof.Proof.Gen.KernelIdeal.Frame
import proofs.«127732_j37460704755814_2_alg».proof.Proof.Gen.ReferenceIdeal
import proofs.«127732_j37460704755814_2_alg».proof.Proof.Gen.ReferenceIdeal.Run
import proofs.«127732_j37460704755814_2_alg».proof.Proof.Gen.ReferenceIdeal.Read
import proofs.«127732_j37460704755814_2_alg».proof.Proof.Gen.Pre_finite_inputs
import proofs.«127732_j37460704755814_2_alg».proof.Proof.KRun
import proofs.«127732_j37460704755814_2_alg».proof.Proof.KValue
import proofs.«127732_j37460704755814_2_alg».proof.Proof.EncArray
import proofs.«127732_j37460704755814_2_alg».proof.Proof.OutArray
import proofs.«127732_j37460704755814_2_alg».proof.Proof.RefValue
import proofs.«127732_j37460704755814_2_alg».proof.Proof.Bridge
import proofs.«127732_j37460704755814_2_alg».proof.Proof.PreDst
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specified function of the arguments at their result, the kernel's at its own index
    arrays and the reference's at its own; under the precondition the two index arrays agree. -/
theorem algebraic : Cert.algebraic_KernelIdeal_ReferenceIdeal := by
  intro m ρ m' ρ' hpre hagree
  refine ⟨fun c => Cert.Spec.G Cert.KernelIdeal.gather_S100000x64_S1200000x1_S1200000x64_1_0_n_n_0_1_164
      Cert.KernelIdeal.scatter_S100000x64_S1200000x1_S1200000x64_1_0_0_1
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (Cert.KHost.srcIdx (m ((c.tc : Thread Cert.KernelIdeal.nD Cert.KernelIdeal.τ).loc Cert.KernelIdeal.main_arg1)))
      (Cert.KHost.dstIdx (m ((c.tc : Thread Cert.KernelIdeal.nD Cert.KernelIdeal.τ).loc Cert.KernelIdeal.main_arg1)))
      (Cert.KHost.pmIdx (m ((c.tc : Thread Cert.KernelIdeal.nD Cert.KernelIdeal.τ).loc Cert.KernelIdeal.main_arg2))), ?_, ?_⟩
  · exact (θ_run Cert.KernelIdeal.defs _ _).mono
      (fun r h c => ⟨(h c).1.trans (Cert.KValue.kernel_result m ρ c
          (Cert.EncArray.enc_array (Cert.KernelIdeal.Gen.V1 m ρ) c) (Cert.OutArray.out_array (Cert.KernelIdeal.Gen.V3 m ρ) c)), (h c).2⟩)
      (Cert.KRun.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq, Cert.RefValue.ref_is_G,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.Bridge.G_agree _ _ _ _ _ _ _ _ _ (fun e => Cert.PreDst.dst_not_slt m hpre c e)).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
